-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S4096x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S4x4 : Shape := ⟨2, ![4, 4]⟩
abbrev S4 : Shape := ⟨1, ![4]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S4x4 : S_.BroadcastsInDim S4x4 (![] : Fin 0 → Fin S4x4.rank)
  reducesTo_S4x4_S_d0_1 : S4x4.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S2097152x4 .f32) (main_arg1 : FVec F S4x4 .f32) (main_arg2 : FVec F S4 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S4x4 .f32 := Host.absf main_arg1
  let main_cst_0 : FVec F S_ .f32 := constant S_ .f32 0x7F800000#32
  let main_v5 : FVec F S4x4 .f32 := broadcastInDim S4x4 ![] bcast_S_S4x4 main_cst_0
  let main_v6 : IVec S4x4 1 := cmpf .olt main_v4 main_v5
  let main_c_1 : IVec S_ 1 := constantI S_ 1 1#1
  let main_v7 : IVec S_ 1 := (fun x v => Host.reduce IntOp.andi x v reducesTo_S4x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S2097152x4 : Shape := ⟨2, ![2097152, 4]⟩
abbrev S4x4 : Shape := ⟨2, ![4, 4]⟩
abbrev S4 : Shape := ⟨1, ![4]⟩
abbrev S65536x128 : Shape := ⟨2, ![65536, 128]⟩
abbrev S32x32 : Shape := ⟨2, ![32, 32]⟩
abbrev S_ : Shape := ⟨0, ![]⟩
abbrev S32x1x32x1 : Shape := ⟨4, ![32, 1, 32, 1]⟩
abbrev S1x4x1x4 : Shape := ⟨4, ![1, 4, 1, 4]⟩
abbrev S32x4x32x4 : Shape := ⟨4, ![32, 4, 32, 4]⟩
abbrev S128x128 : Shape := ⟨2, ![128, 128]⟩
abbrev S384x128 : Shape := ⟨2, ![384, 128]⟩
abbrev S1x4 : Shape := ⟨2, ![1, 4]⟩
abbrev S32x4 : Shape := ⟨2, ![32, 4]⟩
abbrev S128 : Shape := ⟨1, ![128]⟩
abbrev S1x128 : Shape := ⟨2, ![1, 128]⟩
abbrev S4096x128 : Shape := ⟨2, ![4096, 128]⟩
abbrev S4096x384 : Shape := ⟨2, ![4096, 384]⟩

abbrev nBuf : Space → Nat
  | .hbm => 28
  | .vmem => 6
  | .smem => 0
  | _ => 0

abbrev bufTy : (tb : Table) → Fin (tcTables nBuf tb) → BufTy
  | .hbm, ⟨0, _⟩ => ⟨S2097152x4, .f32⟩
  | .hbm, ⟨1, _⟩ => ⟨S4x4, .f32⟩
  | .hbm, ⟨2, _⟩ => ⟨S4, .f32⟩
  | .hbm, ⟨3, _⟩ => ⟨S65536x128, .f32⟩
  | .hbm, ⟨4, _⟩ => ⟨S32x32, .i32⟩
  | .hbm, ⟨5, _⟩ => ⟨S32x32, .i32⟩
  | .hbm, ⟨6, _⟩ => ⟨S_, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S32x32, .f32⟩
  | .hbm, ⟨11, _⟩ => ⟨S32x1x32x1, .f32⟩
  | .hbm, ⟨12, _⟩ => ⟨S1x4x1x4, .f32⟩
  | .hbm, ⟨13, _⟩ => ⟨S32x4x32x4, .f32⟩
  | .hbm, ⟨14, _⟩ => ⟨S32x4x32x4, .f32⟩
  | .hbm, ⟨15, _⟩ => ⟨S32x4x32x4, .f32⟩
  | .hbm, ⟨16, _⟩ => ⟨S128x128, .f32⟩
  | .hbm, ⟨17, _⟩ => ⟨S128x128, .bf16⟩
  | .hbm, ⟨18, _⟩ => ⟨S128x128, .f32⟩
  | .hbm, ⟨19, _⟩ => ⟨S128x128, .f32⟩
  | .hbm, ⟨20, _⟩ => ⟨S128x128, .bf16⟩
  | .hbm, ⟨21, _⟩ => ⟨S384x128, .bf16⟩
  | .hbm, ⟨22, _⟩ => ⟨S1x4, .f32⟩
  | .hbm, ⟨23, _⟩ => ⟨S32x4, .f32⟩
  | .hbm, ⟨24, _⟩ => ⟨S128, .f32⟩
  | .hbm, ⟨25, _⟩ => ⟨S1x128, .f32⟩
  | .hbm, ⟨26, _⟩ => ⟨S65536x128, .f32⟩
  | .hbm, ⟨27, _⟩ => ⟨S2097152x4, .f32⟩
  | .local _ .vmem, ⟨0, _⟩ => ⟨S4096x128, .f32⟩
  | .local _ .vmem, ⟨1, _⟩ => ⟨S4096x128, .f32⟩
  | .local _ .vmem, ⟨2, _⟩ => ⟨S384x128, .bf16⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2097152x4_S65536x128 : S2097152x4.ShapeCasts S65536x128
  bcast_S_S32x32 : S_.BroadcastsInDim S32x32 (![] : Fin 0 → Fin S32x32.rank)
  bcast_S32x32_S32x1x32x1_0_2 : S32x32.BroadcastsInDim S32x1x32x1 (![0, 2] : Fin 2 → Fin S32x1x32x1.rank)
  bcast_S4x4_S1x4x1x4_1_3 : S4x4.BroadcastsInDim S1x4x1x4 (![1, 3] : Fin 2 → Fin S1x4x1x4.rank)
  bcast_S32x1x32x1_S32x4x32x4_0_1_2_3 : S32x1x32x1.BroadcastsInDim S32x4x32x4 (![0, 1, 2, 3] : Fin 4 → Fin S32x4x32x4.rank)
  bcast_S1x4x1x4_S32x4x32x4_0_1_2_3 : S1x4x1x4.BroadcastsInDim S32x4x32x4 (![0, 1, 2, 3] : Fin 4 → Fin S32x4x32x4.rank)
  shapeCasts_S32x4x32x4_S128x128 : S32x4x32x4.ShapeCasts S128x128
  bitsLt_bf16_f32 : FTy.bits .bf16 < FTy.bits .f32
  concatenates_S128x128_S128x128_S128x128_S384x128_d0 : Shape.Concatenates [S128x128, S128x128, S128x128] S384x128 0
  shapeCasts_S4_S1x4 : S4.ShapeCasts S1x4
  bcast_S1x4_S32x4_0_1 : S1x4.BroadcastsInDim S32x4 (![0, 1] : Fin 2 → Fin S32x4.rank)
  shapeCasts_S32x4_S128 : S32x4.ShapeCasts S128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  concatenates_S4096x128_S4096x128_S4096x128_S4096x384_d1 : Shape.Concatenates [S4096x128, S4096x128, S4096x128] S4096x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S65536x128_S2097152x4 : S65536x128.ShapeCasts S2097152x4
  dot_S4096x384_S384x128_S4096x128_1_0_0_1_n_n_wf : DotDims.WF S4096x384 S384x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .bf16 = 32 ∨ (Rect.block (s := S384x128) S384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S65536x128.size a
  hwx0_3 : ∀ i : grid0.Coords, EltTy.bits .f32 = 32 ∨ (Rect.block (s := S65536x128) S4096x128.size (cc0_transform_3 i) (hinb0_3 i)).WholeWords (EltTy.packing .f32)

variable [Facts₀]

def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S4x4 : Shape := ⟨2, ![4, 4]⟩
abbrev S4 : Shape := ⟨1, ![4]⟩
abbrev S65536x128 : Shape := ⟨2, ![65536, 128]⟩
abbrev S32x32 : Shape := ⟨2, ![32, 32]⟩
abbrev S_ : Shape := ⟨0, ![]⟩
abbrev S32x1x32x1 : Shape := ⟨4, ![32, 1, 32, 1]⟩
abbrev S1x4x1x4 : Shape := ⟨4, ![1, 4, 1, 4]⟩
abbrev S32x4x32x4 : Shape := ⟨4, ![32, 4, 32, 4]⟩
abbrev S128x128 : Shape := ⟨2, ![128, 128]⟩
abbrev S1x4 : Shape := ⟨2, ![1, 4]⟩
abbrev S32x4 : Shape := ⟨2, ![32, 4]⟩
abbrev S128 : Shape := ⟨1, ![128]⟩
abbrev S1x128 : Shape := ⟨2, ![1, 128]⟩
abbrev S4096x128 : Shape := ⟨2, ![4096, 128]⟩

abbrev nBuf : Space → Nat
  | .hbm => 23
  | .vmem => 6
  | .smem => 0
  | _ => 0

abbrev bufTy : (tb : Table) → Fin (tcTables nBuf tb) → BufTy
  | .hbm, ⟨0, _⟩ => ⟨S2097152x4, .f32⟩
  | .hbm, ⟨1, _⟩ => ⟨S4x4, .f32⟩
  | .hbm, ⟨2, _⟩ => ⟨S4, .f32⟩
  | .hbm, ⟨3, _⟩ => ⟨S65536x128, .f32⟩
  | .hbm, ⟨4, _⟩ => ⟨S32x32, .i32⟩
  | .hbm, ⟨5, _⟩ => ⟨S32x32, .i32⟩
  | .hbm, ⟨6, _⟩ => ⟨S_, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S32x32, .f32⟩
  | .hbm, ⟨11, _⟩ => ⟨S32x1x32x1, .f32⟩
  | .hbm, ⟨12, _⟩ => ⟨S1x4x1x4, .f32⟩
  | .hbm, ⟨13, _⟩ => ⟨S32x4x32x4, .f32⟩
  | .hbm, ⟨14, _⟩ => ⟨S32x4x32x4, .f32⟩
  | .hbm, ⟨15, _⟩ => ⟨S32x4x32x4, .f32⟩
  | .hbm, ⟨16, _⟩ => ⟨S128x128, .f32⟩
  | .hbm, ⟨17, _⟩ => ⟨S1x4, .f32⟩
  | .hbm, ⟨18, _⟩ => ⟨S32x4, .f32⟩
  | .hbm, ⟨19, _⟩ => ⟨S128, .f32⟩
  | .hbm, ⟨20, _⟩ => ⟨S1x128, .f32⟩
  | .hbm, ⟨21, _⟩ => ⟨S65536x128, .f32⟩
  | .hbm, ⟨22, _⟩ => ⟨S2097152x4, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2097152x4_S65536x128 : S2097152x4.ShapeCasts S65536x128
  bcast_S_S32x32 : S_.BroadcastsInDim S32x32 (![] : Fin 0 → Fin S32x32.rank)
  bcast_S32x32_S32x1x32x1_0_2 : S32x32.BroadcastsInDim S32x1x32x1 (![0, 2] : Fin 2 → Fin S32x1x32x1.rank)
  bcast_S4x4_S1x4x1x4_1_3 : S4x4.BroadcastsInDim S1x4x1x4 (![1, 3] : Fin 2 → Fin S1x4x1x4.rank)
  bcast_S32x1x32x1_S32x4x32x4_0_1_2_3 : S32x1x32x1.BroadcastsInDim S32x4x32x4 (![0, 1, 2, 3] : Fin 4 → Fin S32x4x32x4.rank)
  bcast_S1x4x1x4_S32x4x32x4_0_1_2_3 : S1x4x1x4.BroadcastsInDim S32x4x32x4 (![0, 1, 2, 3] : Fin 4 → Fin S32x4x32x4.rank)
  shapeCasts_S32x4x32x4_S128x128 : S32x4x32x4.ShapeCasts S128x128
  shapeCasts_S4_S1x4 : S4.ShapeCasts S1x4
  bcast_S1x4_S32x4_0_1 : S1x4.BroadcastsInDim S32x4 (![0, 1] : Fin 2 → Fin S32x4.rank)
  shapeCasts_S32x4_S128 : S32x4.ShapeCasts S128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S65536x128_S2097152x4 : S65536x128.ShapeCasts S2097152x4
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S65536x128.size a
  hwx0_3 : ∀ i : grid0.Coords, EltTy.bits .f32 = 32 ∨ (Rect.block (s := S65536x128) S4096x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.FrameKernel.lean ====
/-
  The frame of `Kernel`: the program is a stretch of host operations (the packing of the activations,
  the block-diagonal weight and its three-part stack, the tiled bias), one launch of the kernel over
  16 grid points, and one host reshape of the launched result.  Each grid point reads its own block
  of 4096 packed rows, the whole weight stack and the whole bias row, and overwrites its own block
  of the result; nothing else is touched, so the three argument arrays end as they started.

  What the body leaves in the result's staging buffer is named (`outBlock`) as a function of the
  three input blocks, so that a value proof can read the launched array off the run (`run_main`).
-/
import proofs.«136902_g2000104694688240_pallasbulk_140_2_alg».proof.Proof.Gen.Kernel.Launch
import proofs.«136902_g2000104694688240_pallasbulk_140_2_alg».proof.Proof.Gen.Kernel.Skeleton
import proofs.«136902_g2000104694688240_pallasbulk_140_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- The buffers' contents when the kernel is launched: the launch memory after the host operations
    that come before the launch. -/
abbrev V0 (c : Dev nD) : Valuation τ sig (Elt F) :=
  StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the launch, the launch, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the launch touches only the launched arrays and the buffers the launch leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the four launched arrays (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor does the reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The blocks a grid point sees -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether it was fetched
    at this point or kept from an earlier one — provided the body leaves the inputs' buffers alone. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body -/

abbrev rX : Rect S4096x128 := Rect.unit (s := S4096x128) ![0, 0] S4096x128.size inb_S4096x128_S4096x128_0_0
abbrev rW : Rect S384x128 := Rect.unit (s := S384x128) ![0, 0] S384x128.size inb_S384x128_S384x128_0_0
abbrev rB : Rect S1x128 := Rect.unit (s := S1x128) ![0, 0] S1x128.size inb_S1x128_S1x128_0_0

/-- What the body leaves in the result's staging buffer: its one store, of the body's arithmetic on
    the three input blocks, over the whole buffer. -/
def outBlock (x0 : Vec F S4096x128 .f32) (x1 : Vec F S384x128 .bf16) (x2 : Vec F S1x128 .f32) : Vec F S4096x128 .f32 :=
  View.canon [⟨rX, k0_pay1 (View.ld x0 rX) (View.ld x1 rW) (View.ld x2 rB)⟩]

/-- That one store covers the buffer. -/
theorem cover_out (p0 : Vec F S4096x128 .f32) (y : S4096x128.Idx) :
    ∃ pc ∈ ([⟨rX, p0⟩] : List (View.Piece (Elt F) S4096x128 .f32)), y ∈ pc.1.set :=
  View.cover_of_tiled [⟨rX, p0⟩] S4096x128.size (by rfl) y

set_option maxHeartbeats 1000000 in
/-- The body, run on whole staging buffers holding `x0`, `x1`, `x2` and anything in the result's: it
    ends with the inputs' buffers as they were and the result's at `outBlock x0 x1 x2`. -/
theorem sound_kernel (c : Dev nD) (E : Set ℕ) (i : grid0.Coords) (arg1 : Memref sig .tc .vmem S4096x128 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S4096x128 .f32) (harg4 : arg4.IsWhole)
    (x0 : Vec F S4096x128 .f32) (x1 : Vec F S384x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The launch's proof data -/

/-- The arrays as the launch finds them; after the body at point `t` each input's buffer still at its
    block and the result's at `outBlock` of the three input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; afterwards each launched
    array is what the grid points' blocks make of it, and every other buffer is as the reshape after
    the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩) (run_main m ρ)

end Cert.Kernel.Fr

end
-- ==== Proof.FrameKernelIdeal.lean ====
/-
  The frame of `KernelIdeal`: the program is a stretch of host operations (the packing of the activations,
  the block-diagonal weight and its three-part stack, the tiled bias), one launch of the kernel over
  16 grid points, and one host reshape of the launched result.  Each grid point reads its own block
  of 4096 packed rows, the whole weight stack and the whole bias row, and overwrites its own block
  of the result; nothing else is touched, so the three argument arrays end as they started.

  What the body leaves in the result's staging buffer is named (`outBlock`) as a function of the
  three input blocks, so that a value proof can read the launched array off the run (`run_main`).
-/
import proofs.«136902_g2000104694688240_pallasbulk_140_2_alg».proof.Proof.Gen.KernelIdeal.Launch
import proofs.«136902_g2000104694688240_pallasbulk_140_2_alg».proof.Proof.Gen.KernelIdeal.Skeleton
import proofs.«136902_g2000104694688240_pallasbulk_140_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- The buffers' contents when the kernel is launched: the launch memory after the host operations
    that come before the launch. -/
abbrev V0 (c : Dev nD) : Valuation τ sig (Elt F) :=
  StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the launch, the launch, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the launch touches only the launched arrays and the buffers the launch leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the four launched arrays (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor does the reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The blocks a grid point sees -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether it was fetched
    at this point or kept from an earlier one — provided the body leaves the inputs' buffers alone. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body -/

abbrev rX : Rect S4096x128 := Rect.unit (s := S4096x128) ![0, 0] S4096x128.size inb_S4096x128_S4096x128_0_0
abbrev rW : Rect S384x128 := Rect.unit (s := S384x128) ![0, 0] S384x128.size inb_S384x128_S384x128_0_0
abbrev rB : Rect S1x128 := Rect.unit (s := S1x128) ![0, 0] S1x128.size inb_S1x128_S1x128_0_0

/-- What the body leaves in the result's staging buffer: its one store, of the body's arithmetic on
    the three input blocks, over the whole buffer. -/
def outBlock (x0 : Vec F S4096x128 .f32) (x1 : Vec F S384x128 .bf16) (x2 : Vec F S1x128 .f32) : Vec F S4096x128 .f32 :=
  View.canon [⟨rX, k0_pay1 (View.ld x0 rX) (View.ld x1 rW) (View.ld x2 rB)⟩]

/-- That one store covers the buffer. -/
theorem cover_out (p0 : Vec F S4096x128 .f32) (y : S4096x128.Idx) :
    ∃ pc ∈ ([⟨rX, p0⟩] : List (View.Piece (Elt F) S4096x128 .f32)), y ∈ pc.1.set :=
  View.cover_of_tiled [⟨rX, p0⟩] S4096x128.size (by rfl) y

set_option maxHeartbeats 1000000 in
/-- The body, run on whole staging buffers holding `x0`, `x1`, `x2` and anything in the result's: it
    ends with the inputs' buffers as they were and the result's at `outBlock x0 x1 x2`. -/
theorem sound_kernel (c : Dev nD) (E : Set ℕ) (i : grid0.Coords) (arg1 : Memref sig .tc .vmem S4096x128 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S4096x128 .f32) (harg4 : arg4.IsWhole)
    (x0 : Vec F S4096x128 .f32) (x1 : Vec F S384x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The launch's proof data -/

/-- The arrays as the launch finds them; after the body at point `t` each input's buffer still at its
    block and the result's at `outBlock` of the three input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; afterwards each launched
    array is what the grid points' blocks make of it, and every other buffer is as the reshape after
    the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩) (run_main m ρ)

end Cert.KernelIdeal.Fr

end
-- ==== Proof.Spec.lean ====
/-
  The mathematics both programs compute, stated once over whole arrays.

  A batch of 2097152 samples of 4 features is packed 32 samples to a row of 128 lanes; the 4×4 weight
  becomes the 128×128 block-diagonal matrix with 32 copies of it on the diagonal, the bias a row of 128
  lanes with 32 copies of it.  At packed row `R` and lane `l` the result is

      exp (-50 · (y · y)),   y = Σ_{k < 128} X(R,k) · W(k,l) + B(0,l),

  and the packed result is unpacked to 2097152 × 4 again.  Here are: the packing operations as the
  host performs them (`packRows`, `blockDiag`, `biasRow`, `unpack`), the three-part stack the
  optimized program builds from the block-diagonal weight (`stackW`), the entry-by-entry result (`G`),
  and the small facts about finite extended reals that make the three-part product collapse.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev S2097152x4 : Shape := ⟨2, ![2097152, 4]⟩
abbrev S4x4 : Shape := ⟨2, ![4, 4]⟩
abbrev S4 : Shape := ⟨1, ![4]⟩
abbrev S65536x128 : Shape := ⟨2, ![65536, 128]⟩
abbrev S32x32 : Shape := ⟨2, ![32, 32]⟩
abbrev S_ : Shape := ⟨0, ![]⟩
abbrev S32x1x32x1 : Shape := ⟨4, ![32, 1, 32, 1]⟩
abbrev S1x4x1x4 : Shape := ⟨4, ![1, 4, 1, 4]⟩
abbrev S32x4x32x4 : Shape := ⟨4, ![32, 4, 32, 4]⟩
abbrev S128x128 : Shape := ⟨2, ![128, 128]⟩
abbrev S384x128 : Shape := ⟨2, ![384, 128]⟩
abbrev S1x4 : Shape := ⟨2, ![1, 4]⟩
abbrev S32x4 : Shape := ⟨2, ![32, 4]⟩
abbrev S128 : Shape := ⟨1, ![128]⟩
abbrev S1x128 : Shape := ⟨2, ![1, 128]⟩

theorem cast_pack : S2097152x4.ShapeCasts S65536x128 := by decide
theorem cast_unpack : S65536x128.ShapeCasts S2097152x4 := by decide
theorem bc_zero : S_.BroadcastsInDim S32x32 (![] : Fin 0 → Fin S32x32.rank) := by decide
theorem bc_eye : S32x32.BroadcastsInDim S32x1x32x1 (![0, 2] : Fin 2 → Fin S32x1x32x1.rank) := by decide
theorem bc_w : S4x4.BroadcastsInDim S1x4x1x4 (![1, 3] : Fin 2 → Fin S1x4x1x4.rank) := by decide
theorem bc_eye4 : S32x1x32x1.BroadcastsInDim S32x4x32x4 (![0, 1, 2, 3] : Fin 4 → Fin S32x4x32x4.rank) := by decide
theorem bc_w4 : S1x4x1x4.BroadcastsInDim S32x4x32x4 (![0, 1, 2, 3] : Fin 4 → Fin S32x4x32x4.rank) := by decide
theorem cast_kron : S32x4x32x4.ShapeCasts S128x128 := by decide
theorem bits_lt : FTy.bits .bf16 < FTy.bits .f32 := by decide
theorem cat_stack : Shape.Concatenates [S128x128, S128x128, S128x128] S384x128 0 := by decide
theorem cast_b1 : S4.ShapeCasts S1x4 := by decide
theorem bc_b : S1x4.BroadcastsInDim S32x4 (![0, 1] : Fin 2 → Fin S32x4.rank) := by decide
theorem cast_b2 : S32x4.ShapeCasts S128 := by decide
theorem cast_b3 : S128.ShapeCasts S1x128 := by decide

/-! ## The host's packing -/

/-- 32 consecutive samples to a row: the batch read row-major as 65536 × 128. -/
def packRows (a0 : FVec Ideal S2097152x4 .f32) : FVec Ideal S65536x128 .f32 := shapeCast S65536x128 a0 cast_pack

/-- The 32 × 32 identity as the host builds it: 1 where the row number equals the column number. -/
def eye : FVec Ideal S32x32 .f32 :=
  uitofp (F := Ideal) .f32 (cmpi .eq (addi (iotaInDim S32x32 32 0) (broadcastInDim S32x32 ![] bc_zero (constantI S_ 32 0#32))) (iotaInDim S32x32 32 1))

/-- The Kronecker product of the identity with the weight, entry (p,a,q,b) = eye(p,q) · w(a,b), read
    row-major as 128 × 128: 32 copies of the weight down the diagonal. -/
def blockDiag (a1 : FVec Ideal S4x4 .f32) : FVec Ideal S128x128 .f32 :=
  shapeCast S128x128
    (mulf (broadcastInDim S32x4x32x4 ![0, 1, 2, 3] bc_eye4 (broadcastInDim S32x1x32x1 ![0, 2] bc_eye eye))
      (broadcastInDim S32x4x32x4 ![0, 1, 2, 3] bc_w4 (broadcastInDim S1x4x1x4 ![1, 3] bc_w a1))) cast_kron

/-- The bias repeated 32 times along one row of 128 lanes. -/
def biasRow (a2 : FVec Ideal S4 .f32) : FVec Ideal S1x128 .f32 :=
  shapeCast S1x128 (shapeCast S128 (broadcastInDim S32x4 ![0, 1] bc_b (shapeCast S1x4 a2 cast_b1)) cast_b2) cast_b3

/-- The packed result read back as 2097152 × 4. -/
def unpack (o : FVec Ideal S65536x128 .f32) : FVec Ideal S2097152x4 .f32 := shapeCast S2097152x4 o cast_unpack

/-- The optimized program's weight stack: the matrix, the matrix again, and the matrix less itself,
    one above the other (changes of float format are the identity on extended reals). -/
def stackW (W : FVec Ideal S128x128 .f32) : FVec Ideal S384x128 .bf16 :=
  concatenate S384x128 0
    [⟨S128x128, truncf .bf16 W bits_lt⟩, ⟨S128x128, truncf .bf16 W bits_lt⟩,
     ⟨S128x128, truncf .bf16 (subf W (extf .f32 (truncf .bf16 W bits_lt) bits_lt)) bits_lt⟩] cat_stack

/-! ## The result, entry by entry -/

/-- The linear part at packed row `R`, lane `l`. -/
def lin (X : FVec Ideal S65536x128 .f32) (W : FVec Ideal S128x128 .f32) (B : FVec Ideal S1x128 .f32)
    (R : Fin 65536) (l : Fin 128) : EReal :=
  (∑ k : Fin 128, X (ix2 R k) * W (ix2 k l)) + B (ix2 (0 : Fin 1) l)

/-- The Gaussian activation exp (-50 · y²); -50 is kept as its float word. -/
def act (y : EReal) : EReal := Ideal.exp (Ideal.ofBits .f32 0xC2480000#32 * (y * y))

/-- The packed result as one function of the packed activations, the block-diagonal weight and the bias row. -/
def G (X : FVec Ideal S65536x128 .f32) (W : FVec Ideal S128x128 .f32) (B : FVec Ideal S1x128 .f32) :
    FVec Ideal S65536x128 .f32 :=
  fun i => act (lin X W B ⟨(i 0).val, idx2_lt0 i⟩ ⟨(i 1).val, idx2_lt1 i⟩)

theorem G_ix2 (X : FVec Ideal S65536x128 .f32) (W : FVec Ideal S128x128 .f32) (B : FVec Ideal S1x128 .f32)
    (R : Fin 65536) (l : Fin 128) : G X W B (ix2 R l) = act (lin X W B R l) := rfl

/-- What both programs return, as a function of the three arguments. -/
def result (a0 : FVec Ideal S2097152x4 .f32) (a1 : FVec Ideal S4x4 .f32) (a2 : FVec Ideal S4 .f32) :
    FVec Ideal S2097152x4 .f32 :=
  unpack (G (packRows a0) (blockDiag a1) (biasRow a2))

/-! ## Finite extended reals -/

/-- An extended real that is a real number. -/
def IsReal (x : EReal) : Prop := ∃ r : ℝ, x = (r : EReal)

theorem IsReal.sub_self {x : EReal} (h : IsReal x) : x - x = 0 := by
  obtain ⟨r, rfl⟩ := h
  rw [← EReal.coe_sub, _root_.sub_self, EReal.coe_zero]

theorem IsReal.mul {x y : EReal} (hx : IsReal x) (hy : IsReal y) : IsReal (x * y) := by
  obtain ⟨r, rfl⟩ := hx; obtain ⟨s, rfl⟩ := hy
  exact ⟨r * s, (EReal.coe_mul r s).symm⟩

theorem isReal_coe (r : ℝ) : IsReal (r : EReal) := ⟨r, rfl⟩

/-- A sum over 384 = 128 + 128 + 128 terms, taken third by third. -/
theorem sum_384 (f : Fin 384 → EReal) :
    ∑ k : Fin 384, f k
      = (∑ k : Fin 128, f ⟨k.val, by omega⟩) + (∑ k : Fin 128, f ⟨128 + k.val, by omega⟩)
        + (∑ k : Fin 128, f ⟨256 + k.val, by omega⟩) := by
  have e : ∑ k : Fin 384, f k = ∑ k : Fin (128 + 128 + 128), f (k.cast (by norm_num)) :=
    (Equiv.sum_comp (finCongr (by norm_num : 128 + 128 + 128 = 384)) f).symm
  rw [e, Fin.sum_univ_add, Fin.sum_univ_add]
  refine congrArg₂ (· + ·) (congrArg₂ (· + ·) ?_ ?_) ?_
  · exact Finset.sum_congr rfl fun k _ => congrArg f (Fin.ext rfl)
  · exact Finset.sum_congr rfl fun k _ => congrArg f (Fin.ext rfl)
  · exact Finset.sum_congr rfl fun k _ => congrArg f (Fin.ext rfl)

/-- The three-part product collapses: with `x` and `w` finite, the middle part has `x - x = 0` for a
    factor and the last part `w - w = 0`. -/
theorem three_parts (x w : Fin 128 → EReal) (hx : ∀ k, IsReal (x k)) (hw : ∀ k, IsReal (w k)) :
    (∑ k : Fin 128, x k * w k) + (∑ k : Fin 128, (x k - x k) * w k) + (∑ k : Fin 128, x k * (w k - w k))
      = ∑ k : Fin 128, x k * w k := by
  have h1 : (∑ k : Fin 128, (x k - x k) * w k) = 0 :=
    Finset.sum_eq_zero fun k _ => by rw [(hx k).sub_self, zero_mul]
  have h2 : (∑ k : Fin 128, x k * (w k - w k)) = 0 :=
    Finset.sum_eq_zero fun k _ => by rw [(hw k).sub_self, mul_zero]
  rw [h1, h2, add_zero, add_zero]

end Cert.Spec

end
-- ==== Proof.PayKernel.lean ====
/-
  The optimized program's payload read at one entry.

  At row r and lane l the body computes exp (-50 · (y · y)) with y the matrix product of the
  three-part row [x | x − x | x] (384 columns) with the three-part stack [W ; W ; W − W] (384 rows),
  plus the bias.  The product is a sum over 384 contraction positions; taken third by third it is
  Σ x·w + Σ (x − x)·w + Σ x·(w − w), and the last two vanish when x and w are real numbers.
-/
import proofs.«136902_g2000104694688240_pallasbulk_140_2_alg».proof.Proof.Gen.KernelIdeal.Skeleton
import proofs.«136902_g2000104694688240_pallasbulk_140_2_alg».proof.Proof.Spec
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx

/-! ## The two three-part stacks, read at an index -/

/-- The row stack [x | x − x | x], 384 columns. -/
def xcat (x : FVec Ideal S4096x128 .f32) : FVec Ideal S4096x384 .bf16 :=
  concatenate S4096x384 1
    [⟨S4096x128, truncf .bf16 x Gen.bitsLt_bf16_f32⟩,
     ⟨S4096x128, truncf .bf16 (subf x x) Gen.bitsLt_bf16_f32⟩,
     ⟨S4096x128, truncf .bf16 x Gen.bitsLt_bf16_f32⟩]
    Gen.concatenates_S4096x128_S4096x128_S4096x128_S4096x384_d1

/-- Off the concatenation axis 1 of a rank-2 index only axis 0 is left, and it is the row. -/
theorem off_axis1 {n0 n1 m1 : Nat} (r : Fin n0) (k : Fin n1) (c : Fin m1)
    (b : Fin 2) (hb : b ≠ 1) : ((ix2 r k) b).val = ((ix2 r c) b).val := by
  match b, hb with
  | ⟨0, _⟩, _ => rfl
  | ⟨1, _⟩, hb => exact absurd rfl hb

/-- Off the concatenation axis 0 of a rank-2 index only axis 1 is left, and it is the lane. -/
theorem off_axis0 {n0 m0 n1 : Nat} (k : Fin n0) (c : Fin m0) (l : Fin n1)
    (b : Fin 2) (hb : b ≠ 0) : ((ix2 k l) b).val = ((ix2 c l) b).val := by
  match b, hb with
  | ⟨0, _⟩, hb => exact absurd rfl hb
  | ⟨1, _⟩, _ => rfl

/-- Columns 0 … 127 of the row stack are x. -/
theorem xcat_0 (x : FVec Ideal S4096x128 .f32) (r : Fin 4096) (k : Fin 128) :
    xcat x (ix2 r (⟨k.val, by omega⟩ : Fin 384)) = x (ix2 r k) := by
  unfold xcat
  refine (concatenate_apply_piece (t := S4096x384) 1 _ _ (ix2 r (⟨k.val, by omega⟩ : Fin 384)) 0 ?_
    S4096x128 (truncf .bf16 x Gen.bitsLt_bf16_f32) rfl rfl 0 rfl (ix2 r k) ?_ ?_).trans ?_
  · exact Nat.succ_pos _
  · intro b hb
    exact off_axis1 r k _ b hb
  · exact Nat.zero_add _
  · rfl

/-- Columns 128 … 255 of the row stack are x − x. -/
theorem xcat_1 (x : FVec Ideal S4096x128 .f32) (r : Fin 4096) (k : Fin 128) :
    xcat x (ix2 r (⟨128 + k.val, by omega⟩ : Fin 384)) = x (ix2 r k) - x (ix2 r k) := by
  unfold xcat
  refine (concatenate_apply_piece (t := S4096x384) 1 _ _ (ix2 r (⟨128 + k.val, by omega⟩ : Fin 384)) 1 ?_
    S4096x128 (truncf .bf16 (subf x x) Gen.bitsLt_bf16_f32) rfl rfl 128 rfl (ix2 r k) ?_ ?_).trans ?_
  · exact Nat.succ_lt_succ (Nat.succ_pos _)
  · intro b hb
    exact off_axis1 r k _ b hb
  · rfl
  · rfl

/-- Columns 256 … 383 of the row stack are x again. -/
theorem xcat_2 (x : FVec Ideal S4096x128 .f32) (r : Fin 4096) (k : Fin 128) :
    xcat x (ix2 r (⟨256 + k.val, by omega⟩ : Fin 384)) = x (ix2 r k) := by
  unfold xcat
  refine (concatenate_apply_piece (t := S4096x384) 1 _ _ (ix2 r (⟨256 + k.val, by omega⟩ : Fin 384)) 2 ?_
    S4096x128 (truncf .bf16 x Gen.bitsLt_bf16_f32) rfl rfl 256 rfl (ix2 r k) ?_ ?_).trans ?_
  · exact Nat.succ_lt_succ (Nat.succ_lt_succ (Nat.succ_pos _))
  · intro b hb
    exact off_axis1 r k _ b hb
  · rfl
  · rfl

/-- Rows 0 … 127 of the weight stack are W. -/
theorem stackW_0 (W : FVec Ideal Cert.Spec.S128x128 .f32) (k : Fin 128) (l : Fin 128) :
    Cert.Spec.stackW W (ix2 (⟨k.val, by omega⟩ : Fin 384) l) = W (ix2 k l) := by
  unfold Cert.Spec.stackW
  refine (concatenate_apply_piece (t := Cert.Spec.S384x128) 0 _ _ (ix2 (⟨k.val, by omega⟩ : Fin 384) l) 0 ?_
    Cert.Spec.S128x128 (truncf .bf16 W Cert.Spec.bits_lt) rfl rfl 0 rfl (ix2 k l) ?_ ?_).trans ?_
  · exact Nat.succ_pos _
  · intro b hb
    exact off_axis0 k _ l b hb
  · exact Nat.zero_add _
  · rfl

/-- Rows 128 … 255 of the weight stack are W again. -/
theorem stackW_1 (W : FVec Ideal Cert.Spec.S128x128 .f32) (k : Fin 128) (l : Fin 128) :
    Cert.Spec.stackW W (ix2 (⟨128 + k.val, by omega⟩ : Fin 384) l) = W (ix2 k l) := by
  unfold Cert.Spec.stackW
  refine (concatenate_apply_piece (t := Cert.Spec.S384x128) 0 _ _ (ix2 (⟨128 + k.val, by omega⟩ : Fin 384) l) 1 ?_
    Cert.Spec.S128x128 (truncf .bf16 W Cert.Spec.bits_lt) rfl rfl 128 rfl (ix2 k l) ?_ ?_).trans ?_
  · exact Nat.succ_lt_succ (Nat.succ_pos _)
  · intro b hb
    exact off_axis0 k _ l b hb
  · rfl
  · rfl

/-- Rows 256 … 383 of the weight stack are W − W. -/
theorem stackW_2 (W : FVec Ideal Cert.Spec.S128x128 .f32) (k : Fin 128) (l : Fin 128) :
    Cert.Spec.stackW W (ix2 (⟨256 + k.val, by omega⟩ : Fin 384) l) = W (ix2 k l) - W (ix2 k l) := by
  unfold Cert.Spec.stackW
  refine (concatenate_apply_piece (t := Cert.Spec.S384x128) 0 _ _ (ix2 (⟨256 + k.val, by omega⟩ : Fin 384) l) 2 ?_
    Cert.Spec.S128x128
    (truncf .bf16 (subf W (extf .f32 (truncf .bf16 W Cert.Spec.bits_lt) Cert.Spec.bits_lt)) Cert.Spec.bits_lt)
    rfl rfl 256 rfl (ix2 k l) ?_ ?_).trans ?_
  · exact Nat.succ_lt_succ (Nat.succ_lt_succ (Nat.succ_pos _))
  · intro b hb
    exact off_axis0 k _ l b hb
  · rfl
  · rfl

/-! ## The matrix product as a sum over 384 contraction positions -/

/-- The product contracts one axis … -/
theorem contr_rank : dot_S4096x384_S384x128_S4096x128_1_0_0_1_n_n.contr.rank = 1 := rfl

/-- … of extent 384. -/
theorem contr_size : dot_S4096x384_S384x128_S4096x128_1_0_0_1_n_n.contr.size ⟨0, by rw [contr_rank]; exact Nat.one_pos⟩ = 384 := rfl

/-- The contraction positions are the numbers below 384. -/
def contrE : dot_S4096x384_S384x128_S4096x128_1_0_0_1_n_n.contr.Idx ≃ Fin 384 :=
  contrEquiv1 dot_S4096x384_S384x128_S4096x128_1_0_0_1_n_n 384 contr_rank contr_size

/-- At result entry (r, l) and contraction position k the left operand is read at (r, k). -/
theorem lhs_at (r : Fin 4096) (l : Fin 128) (k : Fin 384) :
    dot_S4096x384_S384x128_S4096x128_1_0_0_1_n_n.lhsIdx (ix2 r l) (contrE.symm k) = ix2 r k := by
  funext a
  match a with
  | ⟨0, _⟩ =>
    refine Fin.ext ?_
    simp [DotDims.lhsIdx, dot_S4096x384_S384x128_S4096x128_1_0_0_1_n_n]
    rfl
  | ⟨1, _⟩ =>
    refine Fin.ext ?_
    refine (DotDims.lhsIdx_val_of_single _ (cl := (1 : Fin 2)) rfl (ix2 r l) (contrE.symm k)).trans ?_
    exact contrEquiv1_symm_val _ 384 contr_rank contr_size k

/-- At result entry (r, l) and contraction position k the right operand is read at (k, l). -/
theorem rhs_at (r : Fin 4096) (l : Fin 128) (k : Fin 384) :
    dot_S4096x384_S384x128_S4096x128_1_0_0_1_n_n.rhsIdx (ix2 r l) (contrE.symm k) = ix2 k l := by
  funext a
  match a with
  | ⟨0, _⟩ =>
    refine Fin.ext ?_
    refine (DotDims.rhsIdx_val_of_single _ (cr := (0 : Fin 2)) rfl (ix2 r l) (contrE.symm k)).trans ?_
    exact contrEquiv1_symm_val _ 384 contr_rank contr_size k
  | ⟨1, _⟩ =>
    refine Fin.ext ?_
    simp [DotDims.rhsIdx, dot_S4096x384_S384x128_S4096x128_1_0_0_1_n_n]
    rfl

/-- The product into a zero accumulator, at one entry, is the sum of the 384 products. -/
theorem matmul_sum (A : FVec Ideal S4096x384 .bf16) (B : FVec Ideal S384x128 .bf16) (r : Fin 4096) (l : Fin 128) :
    matmul dot_S4096x384_S384x128_S4096x128_1_0_0_1_n_n none A B (constant (F := Ideal) S4096x128 .f32 0x00000000#32) (ix2 r l)
      = ∑ k : Fin 384, A (ix2 r k) * B (ix2 k l) := by
  refine (Ideal.matmul_constant_zero_apply dot_S4096x384_S384x128_S4096x128_1_0_0_1_n_n none A B (ix2 r l)).trans ?_
  refine (Equiv.sum_comp contrE.symm _).symm.trans ?_
  refine Finset.sum_congr rfl fun k _ => ?_
  exact congrArg₂ (· * ·) (congrArg A (lhs_at r l k)) (congrArg B (rhs_at r l k))

/-! ## The body's payload at one entry -/

/-- The linear part of the body: the product of the row stack with a 384-row matrix, plus the bias row. -/
def ylin (x0 : FVec Ideal S4096x128 .f32) (w : FVec Ideal S384x128 .bf16) (b : FVec Ideal S1x128 .f32) :
    FVec Ideal S4096x128 .f32 :=
  addf (matmul dot_S4096x384_S384x128_S4096x128_1_0_0_1_n_n none (xcat x0) w
      (constant (F := Ideal) S4096x128 .f32 0x00000000#32))
    (broadcastTo S4096x128 b Gen.broadcasts_S1x128_S4096x128)

/-- The payload is the activation of the linear part, entry by entry: the three reshapes to the same
    shape change nothing, and the remaining operations act entry by entry. -/
theorem pay_eq (x0 : Vec Ideal S4096x128 .f32) (w : Vec Ideal S384x128 .bf16) (b : Vec Ideal S1x128 .f32) :
    Gen.k0_pay1 (F := Ideal) x0 w b = fun i => Cert.Spec.act (ylin x0 w b i) := by
  have h : Gen.k0_pay1 (F := Ideal) x0 w b
      = fun i => Cert.Spec.act (ylin (shapeCast S4096x128 x0 Gen.shapeCasts_S4096x128_S4096x128)
          (shapeCast S384x128 w Gen.shapeCasts_S384x128_S384x128)
          (shapeCast S1x128 b Gen.shapeCasts_S1x128_S1x128) i) := rfl
  refine h.trans ?_
  rw [shapeCast_self, shapeCast_self, shapeCast_self]

/-- The linear part at entry (r, l): the sum of the 384 products, plus the bias at lane l. -/
theorem ylin_apply (x0 : FVec Ideal S4096x128 .f32) (w : FVec Ideal S384x128 .bf16) (b : FVec Ideal S1x128 .f32)
    (r : Fin 4096) (l : Fin 128) :
    ylin x0 w b (ix2 r l) = (∑ k : Fin 384, xcat x0 (ix2 r k) * w (ix2 k l)) + b (ix2 (0 : Fin 1) l) := by
  unfold ylin
  refine (addf_apply _ _ (ix2 r l)).trans ?_
  refine congrArg₂ (· + ·) (matmul_sum (xcat x0) w r l) ?_
  refine broadcastTo_apply b Gen.broadcasts_S1x128_S4096x128 (ix2 r l) (ix2 (0 : Fin 1) l) ?_
  intro a
  match a with
  | ⟨0, _⟩ => rfl
  | ⟨1, _⟩ => rfl

/-- With x and W finite the 384 products sum to the 128 products of x with W. -/
theorem sum_collapse (x0 : FVec Ideal S4096x128 .f32) (W : FVec Ideal Cert.Spec.S128x128 .f32) (r : Fin 4096) (l : Fin 128)
    (hx : ∀ k : Fin 128, Cert.Spec.IsReal (x0 (ix2 r k))) (hW : ∀ i, Cert.Spec.IsReal (W i)) :
    (∑ k : Fin 384, xcat x0 (ix2 r k) * Cert.Spec.stackW W (ix2 k l)) = ∑ k : Fin 128, x0 (ix2 r k) * W (ix2 k l) := by
  refine (Cert.Spec.sum_384 (fun k : Fin 384 => xcat x0 (ix2 r k) * Cert.Spec.stackW W (ix2 k l))).trans ?_
  refine Eq.trans ?_ (Cert.Spec.three_parts (fun k : Fin 128 => x0 (ix2 r k)) (fun k : Fin 128 => W (ix2 k l)) hx
    (fun k => hW (ix2 k l)))
  refine congrArg₂ (· + ·) (congrArg₂ (· + ·) ?_ ?_) ?_
  · exact Finset.sum_congr rfl fun k _ => congrArg₂ (· * ·) (xcat_0 x0 r k) (stackW_0 W k l)
  · exact Finset.sum_congr rfl fun k _ => congrArg₂ (· * ·) (xcat_1 x0 r k) (stackW_1 W k l)
  · exact Finset.sum_congr rfl fun k _ => congrArg₂ (· * ·) (xcat_2 x0 r k) (stackW_2 W k l)

/-- The optimized program's payload at entry (r, l), for finite x and W: the activation of
    Σ_k x(r,k) · W(k,l) + b(0,l). -/
theorem pay_apply (x0 : Vec Ideal Cert.KernelIdeal.S4096x128 .f32) (W : FVec Ideal Cert.Spec.S128x128 .f32)
    (b : Vec Ideal Cert.KernelIdeal.S1x128 .f32) (r : Fin 4096) (l : Fin 128)
    (hx : ∀ k : Fin 128, Cert.Spec.IsReal (x0 (ix2 r k))) (hW : ∀ i, Cert.Spec.IsReal (W i)) :
    Cert.KernelIdeal.Gen.k0_pay1 (F := Ideal) x0 (Cert.Spec.stackW W) b (ix2 r l)
      = Cert.Spec.act ((∑ k : Fin 128, x0 (ix2 r k) * W (ix2 k l)) + b (ix2 (0 : Fin 1) l)) := by
  refine (congrFun (pay_eq x0 (Cert.Spec.stackW W) b) (ix2 r l)).trans ?_
  refine congrArg Cert.Spec.act ?_
  refine (ylin_apply x0 (Cert.Spec.stackW W) b r l).trans ?_
  exact congrArg (· + b (ix2 (0 : Fin 1) l)) (sum_collapse x0 W r l hx hW)

end Cert.KernelIdeal.Pay

end
-- ==== Proof.ValueKernel.lean ====
/-
  What the optimized program returns, as a function of its three arguments.

  Grid point `t` reads rows 4096·t … 4096·t + 4095 of the packed activations, the whole three-part
  weight stack and the whole bias row, and writes the same rows of the packed result.  Entry (r, l) of
  what it writes is exp (-50·y²) with y the three-part product at row 4096·t + r plus the bias; for
  finite activations and weights the three-part product is the plain one, so the block is a block of
  `Spec.G`.  The 16 blocks tile the 65536 rows, so the launched array is `Spec.G`, and the reshape
  after the launch makes it `Spec.result`.
-/
import proofs.«136902_g2000104694688240_pallasbulk_140_2_alg».proof.Proof.FrameKernelIdeal
import proofs.«136902_g2000104694688240_pallasbulk_140_2_alg».proof.Proof.Spec
import proofs.«136902_g2000104694688240_pallasbulk_140_2_alg».proof.Proof.PayKernel
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (m : (ℓ : Loc nD τ sig) → Buf (Elt Ideal) ℓ) (ρ : Dev nD → PrngReg)

/-! ## The arrays the launch finds: the host's packing of the arguments -/

theorem V_x (c : Dev nD) : (V m c main_v0 : S65536x128.Idx → EReal) = Cert.Spec.packRows (m ((c : Thread nD τ).loc main_arg0)) := by
  dsimp only [V, V0]
  simp only [hostOps0, hostOps0_1, hostOps0_2, List.flatten_cons, List.flatten_nil, List.append_nil, List.cons_append, List.nil_append]
  after_results
  rfl
theorem V_w (c : Dev nD) : (V m c main_v12 : S384x128.Idx → EReal) = Cert.Spec.stackW (Cert.Spec.blockDiag (m ((c : Thread nD τ).loc main_arg1))) := by
  dsimp only [V, V0]
  simp only [hostOps0, hostOps0_1, hostOps0_2, List.flatten_cons, List.flatten_nil, List.append_nil, List.cons_append, List.nil_append]
  after_results
  rfl
theorem V_b (c : Dev nD) : (V m c main_v16 : S1x128.Idx → EReal) = Cert.Spec.biasRow (m ((c : Thread nD τ).loc main_arg2)) := by
  dsimp only [V, V0]
  simp only [hostOps0, hostOps0_1, hostOps0_2, List.flatten_cons, List.flatten_nil, List.append_nil, List.cons_append, List.nil_append]
  after_results
  rfl

/-! ## Where each window's block sits -/

theorem hz : (![0, 0] : Fin 2 → Nat) = fun _ => 0 := funext fun a => by fin_cases a <;> rfl

/-- Point `t` takes block `t` of the rows of the activations and of the result, and block 0 of the
    weight stack and of the bias row. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem row_lt (t : Fin cfg0.N) (r : Fin 4096) : t.val * 4096 + r.val < 65536 := by
  have h1 : t.val < grid0.N := t.isLt
  rw [N_0] at h1
  have h2 := r.isLt
  omega

/-- Row `r` of point `t`'s activation block is row 4096·t + r of the packed activations. -/
theorem read_x (c : Dev nD) (t : Fin cfg0.N) (r : Fin 4096) (k : Fin 128) :
    iblk m c 0 t (ix2 r k) = Cert.Spec.packRows (m ((c : Thread nD τ).loc main_arg0)) (ix2 ⟨t.val * 4096 + r.val, row_lt t r⟩ k) := by
  show V m c main_v0 (((cfg0.win 0).blk t).view.emb (ix2 r k)) = _
  have e : ((cfg0.win 0).blk t).view.emb (ix2 r k) = ix2 ⟨t.val * 4096 + r.val, row_lt t r⟩ k := by
    obtain ⟨e0, e1, -⟩ := idx_facts t
    funext a; apply Fin.ext
    match a with
    | ⟨0, _⟩ => show win0_0.index t (0 : Fin 2) * 4096 + 1 * r.val = t.val * 4096 + r.val; omega
    | ⟨1, _⟩ => show win0_0.index t (1 : Fin 2) * 128 + 1 * k.val = k.val; omega
  rw [e, V_x]

/-- Every point's weight block is the whole stack. -/
theorem read_w (c : Dev nD) (t : Fin cfg0.N) : iblk m c 1 t = Cert.Spec.stackW (Cert.Spec.blockDiag (m ((c : Thread nD τ).loc main_arg1))) := by
  funext y
  show V m c main_v12 (((cfg0.win 1).blk t).view.emb y) = _
  have e : ((cfg0.win 1).blk t).view.emb y = y := by
    obtain ⟨-, -, e2, e3, -⟩ := idx_facts t
    funext a; apply Fin.ext
    match a with
    | ⟨0, _⟩ => show win0_1.index t (0 : Fin 2) * 384 + 1 * (y 0).val = (y 0).val; omega
    | ⟨1, _⟩ => show win0_1.index t (1 : Fin 2) * 128 + 1 * (y 1).val = (y 1).val; omega
  rw [e, V_w]

/-- Every point's bias block is the whole row. -/
theorem read_b (c : Dev nD) (t : Fin cfg0.N) (l : Fin 128) :
    iblk m c 2 t (ix2 (0 : Fin 1) l) = Cert.Spec.biasRow (m ((c : Thread nD τ).loc main_arg2)) (ix2 (0 : Fin 1) l) := by
  show V m c main_v16 (((cfg0.win 2).blk t).view.emb (ix2 (0 : Fin 1) l)) = _
  have e : ((cfg0.win 2).blk t).view.emb (ix2 (0 : Fin 1) l) = ix2 (0 : Fin 1) l := by
    obtain ⟨-, -, -, -, e4, e5, -⟩ := idx_facts t
    funext a; apply Fin.ext
    match a with
    | ⟨0, _⟩ => show win0_2.index t (0 : Fin 2) * 1 + 1 * 0 = 0; omega
    | ⟨1, _⟩ => show win0_2.index t (1 : Fin 2) * 128 + 1 * l.val = l.val; omega
  rw [e, V_b]

/-- Entry (r, l) of point `t`'s result block is entry (4096·t + r, l) of the result array. -/
theorem emb_out (t : Fin cfg0.N) (r : Fin 4096) (l : Fin 128) :
    ((cfg0.win 3).blk t).view.emb (ix2 r l) = ix2 ⟨t.val * 4096 + r.val, row_lt t r⟩ l := by
  obtain ⟨-, -, -, -, -, -, e6, e7⟩ := idx_facts t
  funext a; apply Fin.ext
  match a with
  | ⟨0, _⟩ => show win0_3.index t (0 : Fin 2) * 4096 + 1 * r.val = t.val * 4096 + r.val; omega
  | ⟨1, _⟩ => show win0_3.index t (1 : Fin 2) * 128 + 1 * l.val = l.val; omega

/-! ## What a point writes back -/

theorem flushed_eq (c : Dev nD) (t : Fin cfg0.N)
    (hX : ∀ i, Cert.Spec.IsReal (Cert.Spec.packRows (m ((c : Thread nD τ).loc main_arg0)) i)) (hW : ∀ i, Cert.Spec.IsReal (Cert.Spec.blockDiag (m ((c : Thread nD τ).loc main_arg1)) i)) :
    (dats m 0 c).flushed 3 t
      = ((cfg0.win 3).blk t).view.read (Elt Ideal) (Cert.Spec.G (Cert.Spec.packRows (m ((c : Thread nD τ).loc main_arg0))) (Cert.Spec.blockDiag (m ((c : Thread nD τ).loc main_arg1))) (Cert.Spec.biasRow (m ((c : Thread nD τ).loc main_arg2)))) := by
  show (cfg0.win 3).cut (grid0.coords t) ((dats m 0 c).after 3 t) = _
  rw [after0_3]
  unfold outBlock
  rw [View.canon_unit_zero hz]
  simp only [View.ld_unit_zero (S := S4096x128) hz, View.ld_unit_zero (S := S384x128) hz, View.ld_unit_zero (S := S1x128) hz]
  rw [read_w]
  funext j
  obtain ⟨r, l, rfl⟩ : ∃ (r : Fin 4096) (l : Fin 128), j = ix2 r l := ⟨j 0, j 1, eq_ix2 j⟩
  show k0_pay1 (iblk m c 0 t) (Cert.Spec.stackW (Cert.Spec.blockDiag (m ((c : Thread nD τ).loc main_arg1)))) (iblk m c 2 t) (ix2 r l)
    = Cert.Spec.G (Cert.Spec.packRows (m ((c : Thread nD τ).loc main_arg0))) (Cert.Spec.blockDiag (m ((c : Thread nD τ).loc main_arg1))) (Cert.Spec.biasRow (m ((c : Thread nD τ).loc main_arg2))) (((cfg0.win 3).blk t).view.emb (ix2 r l))
  rw [emb_out, Cert.Spec.G_ix2]
  refine (Cert.KernelIdeal.Pay.pay_apply (iblk m c 0 t) (Cert.Spec.blockDiag (m ((c : Thread nD τ).loc main_arg1))) (iblk m c 2 t) r l (fun k => ?_) hW).trans ?_
  · rw [read_x]; exact hX _
  · unfold Cert.Spec.lin
    rw [read_b]
    exact congrArg (fun s => Cert.Spec.act (s + Cert.Spec.biasRow (m ((c : Thread nD τ).loc main_arg2)) (ix2 (0 : Fin 1) l)))
      (Finset.sum_congr rfl fun k _ => by rw [read_x])

/-! ## The launched array -/

theorem mem_blk (t : Fin cfg0.N) (i : S65536x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v17).slice (win0_3.rect t)).set ↔ _
  rw [View.set_slice_whole, Rect.mem_set_unit]
  exact Iff.rfl

/-- Row `R` lies in the block of point `R / 4096`. -/
theorem cover (i : S65536x128.Idx) :
    ∃ t : Fin cfg0.N, (cfg0.win 3).flush t = true ∧ i ∈ ((cfg0.win 3).blk t).view.set := by
  have hi0 : (i 0).val < 65536 := (i 0).isLt
  have hi1 : (i 1).val < 128 := (i 1).isLt
  have hN : grid0.N = 16 := N_0
  have ht : (i 0).val / 4096 < cfg0.N := by show _ < grid0.N; omega
  refine ⟨⟨(i 0).val / 4096, ht⟩, flush0_3 _, ?_⟩
  rw [mem_blk]
  obtain ⟨-, -, -, -, -, -, e6, e7⟩ := idx_facts ⟨(i 0).val / 4096, ht⟩
  intro a
  match a with
  | ⟨0, _⟩ =>
    show win0_3.index ⟨(i 0).val / 4096, ht⟩ (0 : Fin 2) * 4096 ≤ (i 0).val ∧ (i 0).val < win0_3.index ⟨(i 0).val / 4096, ht⟩ (0 : Fin 2) * 4096 + 4096
    rw [e6]; show (i 0).val / 4096 * 4096 ≤ (i 0).val ∧ (i 0).val < (i 0).val / 4096 * 4096 + 4096; omega
  | ⟨1, _⟩ =>
    show win0_3.index ⟨(i 0).val / 4096, ht⟩ (1 : Fin 2) * 128 ≤ (i 1).val ∧ (i 1).val < win0_3.index ⟨(i 0).val / 4096, ht⟩ (1 : Fin 2) * 128 + 128
    rw [e7]; omega

theorem final (c : Dev nD)
    (hX : ∀ i, Cert.Spec.IsReal (Cert.Spec.packRows (m ((c : Thread nD τ).loc main_arg0)) i)) (hW : ∀ i, Cert.Spec.IsReal (Cert.Spec.blockDiag (m ((c : Thread nD τ).loc main_arg1)) i)) :
    (dats m 0 c).arrAt 3 cfg0.N = Cert.Spec.G (Cert.Spec.packRows (m ((c : Thread nD τ).loc main_arg0))) (Cert.Spec.blockDiag (m ((c : Thread nD τ).loc main_arg1))) (Cert.Spec.biasRow (m ((c : Thread nD τ).loc main_arg2))) :=
  (dats m 0 c).arrAt_eq_of_cover 3 _ (fun t _ => flushed_eq m c t hX hW) cover

/-! ## The reshape after the launch, and the run -/

theorem tail_eq (c : Dev nD) :
    (Pipeline.afterTail₀ cfgs (dats m) 0 (V0 m) [hostOps1] c main_v18 : S2097152x4.Idx → EReal)
      = Cert.Spec.unpack ((dats m 0 c).arrAt 3 cfg0.N) := by
  unfold Pipeline.afterTail₀
  show StableHlo.after hostOps1 _ (Proc.devRef .tc main_v18) = _
  after_results
  exact congrArg Cert.Spec.unpack
    (Pipeline.withArrays_arr spec0 launch0.win.arr_inj c (V0 m c) (fun w => (dats m 0 c).arrAt w (cfgs 0).N) 3)

/-- Every weakly fair execution terminates with the result at `Spec.result` of the arguments, which
    end unchanged — when the packed activations and the block-diagonal weight are finite. -/
theorem run (hX : ∀ c : Dev nD, ∀ i, Cert.Spec.IsReal (Cert.Spec.packRows (m ((c : Thread nD τ).loc main_arg0)) i))
    (hW : ∀ c : Dev nD, ∀ i, Cert.Spec.IsReal (Cert.Spec.blockDiag (m ((c : Thread nD τ).loc main_arg1)) i)) :
    θ_run (defs (F := Ideal)) (onTc (τ := τ) (main (F := Ideal))) ⟨m, fun _ => 0, ρ⟩ (fun r => ∀ c : Dev nD,
      r.2.mem ((c.tc : Thread nD τ).loc main_v18) = Cert.Spec.result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v18 (Pipeline.mem_restRefs_of main_v18 (by decide) (by decide))).trans
        ((tail_eq m c).trans (congrArg Cert.Spec.unpack (final m c (hX c) (hW c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KV

end
-- ==== Proof.PayReference.lean ====
/-
  The reference kernel's stored value read at one entry: at row `r` and lane `l` it is the Gaussian
  activation of the linear part, y = Σ_{k<128} x(r,k) · W(k,l) + b(0,l).
-/
import proofs.«136902_g2000104694688240_pallasbulk_140_2_alg».proof.Proof.Gen.ReferenceIdeal.Skeleton
import proofs.«136902_g2000104694688240_pallasbulk_140_2_alg».proof.Proof.Spec
import Idealize.ShloMosaic.Lib.ValueIdx
import Idealize.ShloMosaic.Lib.Pipeline.Value
import Idealize.ShloMosaic.PureOps.Ideal.Laws

noncomputable section

namespace Cert.ReferenceIdeal.Pay

open Idealize.ShloMosaic Idealize.ShloMosaic.ValueIdx
open Cert.ReferenceIdeal Cert.ReferenceIdeal.Gen

/-- The left operand's index of the product at output (r,l) and contraction position k is (r,k). -/
theorem lhsIdx_eq (r : Fin 4096) (l : Fin 128) (k : Fin 128) :
    dot_S4096x128_S128x128_S4096x128_1_0_0_1_n_n.lhsIdx (ix2 r l)
      ((contrEquiv1 dot_S4096x128_S128x128_S4096x128_1_0_0_1_n_n 128 rfl rfl).symm k) = ix2 r k := by
  funext a
  refine Fin.ext ?_
  match a with
  | ⟨0, _⟩ => simp [DotDims.lhsIdx, dot_S4096x128_S128x128_S4096x128_1_0_0_1_n_n]; rfl
  | ⟨1, _⟩ =>
    exact (DotDims.lhsIdx_val_of_single dot_S4096x128_S128x128_S4096x128_1_0_0_1_n_n (cl := (1 : Fin 2)) rfl _ _).trans
      (contrEquiv1_symm_val dot_S4096x128_S128x128_S4096x128_1_0_0_1_n_n 128 rfl rfl k)

/-- The right operand's index of the product at output (r,l) and contraction position k is (k,l). -/
theorem rhsIdx_eq (r : Fin 4096) (l : Fin 128) (k : Fin 128) :
    dot_S4096x128_S128x128_S4096x128_1_0_0_1_n_n.rhsIdx (ix2 r l)
      ((contrEquiv1 dot_S4096x128_S128x128_S4096x128_1_0_0_1_n_n 128 rfl rfl).symm k) = ix2 k l := by
  funext a
  refine Fin.ext ?_
  match a with
  | ⟨0, _⟩ =>
    exact (DotDims.rhsIdx_val_of_single dot_S4096x128_S128x128_S4096x128_1_0_0_1_n_n (cr := (0 : Fin 2)) rfl _ _).trans
      (contrEquiv1_symm_val dot_S4096x128_S128x128_S4096x128_1_0_0_1_n_n 128 rfl rfl k)
  | ⟨1, _⟩ => simp [DotDims.rhsIdx, dot_S4096x128_S128x128_S4096x128_1_0_0_1_n_n]; rfl

/-- The product into the zero accumulator, read at (r,l): the sum over the 128 contraction positions. -/
theorem dot_apply (X : FVec Ideal S4096x128 .f32) (W : FVec Ideal S128x128 .f32) (r : Fin 4096) (l : Fin 128) :
    matmul dot_S4096x128_S128x128_S4096x128_1_0_0_1_n_n (some .fp32) X W
        (constant (F := Ideal) S4096x128 .f32 0x00000000#32) (ix2 r l)
      = ∑ k : Fin 128, X (ix2 r k) * W (ix2 k l) := by
  refine (Ideal.matmul_constant_zero_apply dot_S4096x128_S128x128_S4096x128_1_0_0_1_n_n (some .fp32) X W (ix2 r l)).trans ?_
  refine (Equiv.sum_comp (contrEquiv1 dot_S4096x128_S128x128_S4096x128_1_0_0_1_n_n 128 rfl rfl).symm _).symm.trans ?_
  refine Finset.sum_congr rfl fun k _ => ?_
  rw [lhsIdx_eq, rhsIdx_eq]

/-- The bias row broadcast down the rows, read at (r,l): the row's entry at lane l. -/
theorem bias_apply (b : FVec Ideal S1x128 .f32) (h : S1x128.Broadcasts S4096x128) (r : Fin 4096) (l : Fin 128) :
    broadcastTo S4096x128 b h (ix2 r l) = b (ix2 (0 : Fin 1) l) := by
  refine broadcastTo_apply b h (ix2 r l) (ix2 (0 : Fin 1) l) fun a => ?_
  match a with
  | ⟨0, _⟩ => rfl
  | ⟨1, _⟩ => rfl

theorem pay_apply (x0 : Vec Ideal Cert.ReferenceIdeal.S4096x128 .f32) (W : Vec Ideal Cert.ReferenceIdeal.S128x128 .f32)
    (b : Vec Ideal Cert.ReferenceIdeal.S1x128 .f32) (r : Fin 4096) (l : Fin 128) :
    Cert.ReferenceIdeal.Gen.k0_pay1 (F := Ideal) x0 W b (ix2 r l)
      = Cert.Spec.act ((∑ k : Fin 128, x0 (ix2 r k) * W (ix2 k l)) + b (ix2 (0 : Fin 1) l)) := by
  unfold Cert.ReferenceIdeal.Gen.k0_pay1
  simp only [shapeCast_self]
  show Ideal.exp (Ideal.ofBits .f32 0xC2480000#32 * (_ + _) * (_ + _)) = _
  rw [dot_apply, bias_apply]
  unfold Cert.Spec.act
  rw [mul_assoc]

end Cert.ReferenceIdeal.Pay

end
-- ==== Proof.ValueReference.lean ====
/-
  What the reference program returns, as a function of its three arguments.

  Grid point `t` reads rows 4096·t … 4096·t + 4095 of the packed activations, the whole block-diagonal
  weight and the whole bias row, and writes the same rows of the packed result: entry (r, l) is
  exp (-50·y²) with y the product at row 4096·t + r plus the bias, so the block is a block of
  `Spec.G`.  The 16 blocks tile the 65536 rows, so the launched array is `Spec.G`, and the reshape
  after the launch makes it `Spec.result`.
-/
import proofs.«136902_g2000104694688240_pallasbulk_140_2_alg».proof.Proof.Gen.ReferenceIdeal.Frame
import proofs.«136902_g2000104694688240_pallasbulk_140_2_alg».proof.Proof.Spec
import proofs.«136902_g2000104694688240_pallasbulk_140_2_alg».proof.Proof.PayReference
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.ReferenceIdeal.RV

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

/-! ## The arrays the launch finds: the host's packing of the arguments -/

theorem V_x (c : Dev nD) : (V m c main_v0 : S65536x128.Idx → EReal) = Cert.Spec.packRows (m ((c : Thread nD τ).loc main_arg0)) := by
  dsimp only [V, V0]
  simp only [hostOps0, hostOps0_1, hostOps0_2, List.flatten_cons, List.flatten_nil, List.append_nil, List.cons_append, List.nil_append]
  after_results
  rfl
theorem V_w (c : Dev nD) : (V m c main_v7 : S128x128.Idx → EReal) = Cert.Spec.blockDiag (m ((c : Thread nD τ).loc main_arg1)) := by
  dsimp only [V, V0]
  simp only [hostOps0, hostOps0_1, hostOps0_2, List.flatten_cons, List.flatten_nil, List.append_nil, List.cons_append, List.nil_append]
  after_results
  rfl
theorem V_b (c : Dev nD) : (V m c main_v11 : S1x128.Idx → EReal) = Cert.Spec.biasRow (m ((c : Thread nD τ).loc main_arg2)) := by
  dsimp only [V, V0]
  simp only [hostOps0, hostOps0_1, hostOps0_2, List.flatten_cons, List.flatten_nil, List.append_nil, List.cons_append, List.nil_append]
  after_results
  rfl

/-! ## Where each window's block sits -/

theorem hz : (![0, 0] : Fin 2 → Nat) = fun _ => 0 := funext fun a => by fin_cases a <;> rfl

/-- Point `t` takes block `t` of the rows of the activations and of the result, and block 0 of the
    weight stack and of the bias row. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem row_lt (t : Fin cfg0.N) (r : Fin 4096) : t.val * 4096 + r.val < 65536 := by
  have h1 : t.val < grid0.N := t.isLt
  rw [N_0] at h1
  have h2 := r.isLt
  omega

/-- Row `r` of point `t`'s activation block is row 4096·t + r of the packed activations. -/
theorem read_x (c : Dev nD) (t : Fin cfg0.N) (r : Fin 4096) (k : Fin 128) :
    iblk m c 0 t (ix2 r k) = Cert.Spec.packRows (m ((c : Thread nD τ).loc main_arg0)) (ix2 ⟨t.val * 4096 + r.val, row_lt t r⟩ k) := by
  show V m c main_v0 (((cfg0.win 0).blk t).view.emb (ix2 r k)) = _
  have e : ((cfg0.win 0).blk t).view.emb (ix2 r k) = ix2 ⟨t.val * 4096 + r.val, row_lt t r⟩ k := by
    obtain ⟨e0, e1, -⟩ := idx_facts t
    funext a; apply Fin.ext
    match a with
    | ⟨0, _⟩ => show win0_0.index t (0 : Fin 2) * 4096 + 1 * r.val = t.val * 4096 + r.val; omega
    | ⟨1, _⟩ => show win0_0.index t (1 : Fin 2) * 128 + 1 * k.val = k.val; omega
  rw [e, V_x]

/-- Every point's weight block is the whole matrix. -/
theorem read_w (c : Dev nD) (t : Fin cfg0.N) : iblk m c 1 t = Cert.Spec.blockDiag (m ((c : Thread nD τ).loc main_arg1)) := by
  funext y
  show V m c main_v7 (((cfg0.win 1).blk t).view.emb y) = _
  have e : ((cfg0.win 1).blk t).view.emb y = y := by
    obtain ⟨-, -, e2, e3, -⟩ := idx_facts t
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  rw [e, V_w]

/-- Every point's bias block is the whole row. -/
theorem read_b (c : Dev nD) (t : Fin cfg0.N) (l : Fin 128) :
    iblk m c 2 t (ix2 (0 : Fin 1) l) = Cert.Spec.biasRow (m ((c : Thread nD τ).loc main_arg2)) (ix2 (0 : Fin 1) l) := by
  show V m c main_v11 (((cfg0.win 2).blk t).view.emb (ix2 (0 : Fin 1) l)) = _
  have e : ((cfg0.win 2).blk t).view.emb (ix2 (0 : Fin 1) l) = ix2 (0 : Fin 1) l := by
    obtain ⟨-, -, -, -, e4, e5, -⟩ := idx_facts t
    funext a; apply Fin.ext
    match a with
    | ⟨0, _⟩ => show win0_2.index t (0 : Fin 2) * 1 + 1 * 0 = 0; omega
    | ⟨1, _⟩ => show win0_2.index t (1 : Fin 2) * 128 + 1 * l.val = l.val; omega
  rw [e, V_b]

/-- Entry (r, l) of point `t`'s result block is entry (4096·t + r, l) of the result array. -/
theorem emb_out (t : Fin cfg0.N) (r : Fin 4096) (l : Fin 128) :
    ((cfg0.win 3).blk t).view.emb (ix2 r l) = ix2 ⟨t.val * 4096 + r.val, row_lt t r⟩ l := by
  obtain ⟨-, -, -, -, -, -, e6, e7⟩ := idx_facts t
  funext a; apply Fin.ext
  match a with
  | ⟨0, _⟩ => show win0_3.index t (0 : Fin 2) * 4096 + 1 * r.val = t.val * 4096 + r.val; omega
  | ⟨1, _⟩ => show win0_3.index t (1 : Fin 2) * 128 + 1 * l.val = l.val; omega

/-! ## What a point writes back -/

theorem flushed_eq (c : Dev nD) (t : Fin cfg0.N) :
    (dats m 0 c).flushed 3 t
      = ((cfg0.win 3).blk t).view.read (Elt Ideal) (Cert.Spec.G (Cert.Spec.packRows (m ((c : Thread nD τ).loc main_arg0))) (Cert.Spec.blockDiag (m ((c : Thread nD τ).loc main_arg1))) (Cert.Spec.biasRow (m ((c : Thread nD τ).loc main_arg2)))) := by
  show (cfg0.win 3).cut (grid0.coords t) ((dats m 0 c).after 3 t) = _
  rw [after0_3]
  unfold out0_3
  rw [View.canon_unit_zero hz]
  simp only [View.ld_unit_zero (S := S4096x128) hz, View.ld_unit_zero (S := S128x128) hz, View.ld_unit_zero (S := S1x128) hz]
  rw [read_w]
  funext j
  obtain ⟨r, l, rfl⟩ : ∃ (r : Fin 4096) (l : Fin 128), j = ix2 r l := ⟨j 0, j 1, eq_ix2 j⟩
  show k0_pay1 (iblk m c 0 t) (Cert.Spec.blockDiag (m ((c : Thread nD τ).loc main_arg1))) (iblk m c 2 t) (ix2 r l)
    = Cert.Spec.G (Cert.Spec.packRows (m ((c : Thread nD τ).loc main_arg0))) (Cert.Spec.blockDiag (m ((c : Thread nD τ).loc main_arg1))) (Cert.Spec.biasRow (m ((c : Thread nD τ).loc main_arg2))) (((cfg0.win 3).blk t).view.emb (ix2 r l))
  rw [emb_out, Cert.Spec.G_ix2]
  refine (Cert.ReferenceIdeal.Pay.pay_apply (iblk m c 0 t) (Cert.Spec.blockDiag (m ((c : Thread nD τ).loc main_arg1))) (iblk m c 2 t) r l).trans ?_
  · unfold Cert.Spec.lin
    rw [read_b]
    exact congrArg (fun s => Cert.Spec.act (s + Cert.Spec.biasRow (m ((c : Thread nD τ).loc main_arg2)) (ix2 (0 : Fin 1) l)))
      (Finset.sum_congr rfl fun k _ => by rw [read_x])

/-! ## The launched array -/

theorem mem_blk (t : Fin cfg0.N) (i : S65536x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v12).slice (win0_3.rect t)).set ↔ _
  rw [View.set_slice_whole, Rect.mem_set_unit]
  exact Iff.rfl

/-- Row `R` lies in the block of point `R / 4096`. -/
theorem cover (i : S65536x128.Idx) :
    ∃ t : Fin cfg0.N, (cfg0.win 3).flush t = true ∧ i ∈ ((cfg0.win 3).blk t).view.set := by
  have hi0 : (i 0).val < 65536 := (i 0).isLt
  have hi1 : (i 1).val < 128 := (i 1).isLt
  have hN : grid0.N = 16 := N_0
  have ht : (i 0).val / 4096 < cfg0.N := by show _ < grid0.N; omega
  refine ⟨⟨(i 0).val / 4096, ht⟩, flush0_3 _, ?_⟩
  rw [mem_blk]
  obtain ⟨-, -, -, -, -, -, e6, e7⟩ := idx_facts ⟨(i 0).val / 4096, ht⟩
  intro a
  match a with
  | ⟨0, _⟩ =>
    show win0_3.index ⟨(i 0).val / 4096, ht⟩ (0 : Fin 2) * 4096 ≤ (i 0).val ∧ (i 0).val < win0_3.index ⟨(i 0).val / 4096, ht⟩ (0 : Fin 2) * 4096 + 4096
    rw [e6]; show (i 0).val / 4096 * 4096 ≤ (i 0).val ∧ (i 0).val < (i 0).val / 4096 * 4096 + 4096; omega
  | ⟨1, _⟩ =>
    show win0_3.index ⟨(i 0).val / 4096, ht⟩ (1 : Fin 2) * 128 ≤ (i 1).val ∧ (i 1).val < win0_3.index ⟨(i 0).val / 4096, ht⟩ (1 : Fin 2) * 128 + 128
    rw [e7]; omega

theorem final (c : Dev nD) :
    (dats m 0 c).arrAt 3 cfg0.N = Cert.Spec.G (Cert.Spec.packRows (m ((c : Thread nD τ).loc main_arg0))) (Cert.Spec.blockDiag (m ((c : Thread nD τ).loc main_arg1))) (Cert.Spec.biasRow (m ((c : Thread nD τ).loc main_arg2))) :=
  (dats m 0 c).arrAt_eq_of_cover 3 _ (fun t _ => flushed_eq m c t) cover

/-! ## The reshape after the launch, and the run -/

theorem tail_eq (c : Dev nD) :
    (Pipeline.afterTail₀ cfgs (dats m) 0 (V0 m) [hostOps1] c main_v13 : S2097152x4.Idx → EReal)
      = Cert.Spec.unpack ((dats m 0 c).arrAt 3 cfg0.N) := by
  unfold Pipeline.afterTail₀
  show StableHlo.after hostOps1 _ (Proc.devRef .tc main_v13) = _
  after_results
  exact congrArg Cert.Spec.unpack
    (Pipeline.withArrays_arr spec0 launch0.win.arr_inj c (V0 m c) (fun w => (dats m 0 c).arrAt w (cfgs 0).N) 3)

/-- Every weakly fair execution terminates with the result at `Spec.result` of the arguments, which
    end unchanged. -/
theorem run :
    θ_run (defs (F := Ideal)) (onTc (τ := τ) (main (F := Ideal))) ⟨m, fun _ => 0, ρ⟩ (fun r => ∀ c : Dev nD,
      r.2.mem ((c.tc : Thread nD τ).loc main_v13) = Cert.Spec.result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v13 (Pipeline.mem_restRefs_of main_v13 (by decide) (by decide))).trans
        ((tail_eq m c).trans (congrArg Cert.Spec.unpack (final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.RV

end
-- ==== Proof.Finite.lean ====
/-
  Finiteness.  The precondition says that every entry of the three arguments has absolute value
  below +∞; an extended real with that property is a real number.  The host's packing operations
  only move entries around or multiply them by 0 or 1, so the packed activations and the
  block-diagonal weight are made of real numbers as well.
-/
import proofs.«136902_g2000104694688240_pallasbulk_140_2_alg».proof.Proof.Gen.Pre_finite_inputs
import proofs.«136902_g2000104694688240_pallasbulk_140_2_alg».proof.Proof.Spec
import Idealize.ShloMosaic.Lib.ReduceAll
import Idealize.ShloMosaic.Lib.ValueIdx

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- The float word 0x7F800000 is +∞. -/
theorem inf_word : Ideal.ofBits .f32 0x7F800000#32 = (⊤ : EReal) := by
  simp [Ideal.ofBits, Ideal.ieee]

/-- An extended real whose absolute value max x (-x) compares below +∞ is a real number:
    at -∞ and at +∞ the absolute value is +∞. -/
theorem isReal_of_abs_lt (x : EReal)
    (h : Ideal.cmp .olt (max x (-x)) (Ideal.ofBits .f32 0x7F800000#32) = 1#1) : Cert.Spec.IsReal x := by
  rw [inf_word] at h
  have hlt : max x (-x) < ⊤ := by
    by_contra hn
    unfold Ideal.cmp at h
    simp only [hn, decide_false, BitVec.ofBool_false] at h
    exact absurd h (by decide)
  induction x using EReal.rec with
  | bot => simp at hlt
  | coe r => exact ⟨r, rfl⟩
  | top => simp at hlt

/-- One argument: when the conjunction over all its entries of "the absolute value is below +∞"
    holds, every entry is a real number. -/
theorem all_real {s : Shape} (x : FVec Ideal s .f32) (bc : Cert.Pre_finite_inputs.S_.BroadcastsInDim s (![] : Fin 0 → Fin s.rank))
    {axes : List (Fin s.rank)} (red : s.ReducesTo axes Cert.Pre_finite_inputs.S_) (hu : 0 < Cert.Pre_finite_inputs.S_.numel)
    (h : Host.reduce IntOp.andi
          (cmpf .olt (Host.absf x) (broadcastInDim s ![] bc (constant (F := Ideal) Cert.Pre_finite_inputs.S_ .f32 0x7F800000#32)))
          (constantI Cert.Pre_finite_inputs.S_ 1 1#1) red hu ix0 = 1#1) (i : s.Idx) : Cert.Spec.IsReal (x i) :=
  isReal_of_abs_lt (x i) (Host.reduce_andi_all _ _ red hu ix0 h i)

/-- The precondition gives: every entry of each of the three arguments is a real number. -/
theorem args_real (a0 : FVec Ideal Cert.Spec.S2097152x4 .f32) (a1 : FVec Ideal Cert.Spec.S4x4 .f32) (a2 : FVec Ideal Cert.Spec.S4 .f32)
    (h : Cert.Pre_finite_inputs.fn (F := Ideal) a0 a1 a2 = fun _ => 1#1) :
    (∀ i, Cert.Spec.IsReal (a0 i)) ∧ (∀ i, Cert.Spec.IsReal (a1 i)) ∧ (∀ i, Cert.Spec.IsReal (a2 i)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨all_real a0 _ _ _ h0', all_real a1 _ _ _ h1, all_real a2 _ _ _ h2⟩

/-- The packed activations are entries of the batch. -/
theorem packRows_real (a0 : FVec Ideal Cert.Spec.S2097152x4 .f32) (h : ∀ i, Cert.Spec.IsReal (a0 i)) :
    ∀ i, Cert.Spec.IsReal (Cert.Spec.packRows a0 i) := by
  intro i
  unfold Cert.Spec.packRows shapeCast
  exact h _

/-- The identity's entries are 0 or 1: a one-bit word read as a natural number. -/
theorem eye_real (i : Cert.Spec.S32x32.Idx) : Cert.Spec.IsReal (Cert.Spec.eye i) := ⟨_, rfl⟩

/-- Each entry of the block-diagonal weight is an entry of the identity times an entry of the weight. -/
theorem blockDiag_real (a1 : FVec Ideal Cert.Spec.S4x4 .f32) (h : ∀ i, Cert.Spec.IsReal (a1 i)) :
    ∀ i, Cert.Spec.IsReal (Cert.Spec.blockDiag a1 i) := by
  intro i
  unfold Cert.Spec.blockDiag shapeCast
  rw [mulf_apply]
  unfold broadcastInDim
  exact Cert.Spec.IsReal.mul (eye_real _) (h _)

end Cert.Finite

end
-- ==== Proof.lean ====
/-
  The optimized program and its reference compute one function.

  Both pack 32 samples to a row of 128 lanes, build the block-diagonal 128 × 128 weight and the tiled
  bias, and return exp (-50·y²) of y = x·W + b, row by row.  The optimized program forms x·W as a
  three-part product [x | x − x | x] · [W ; W ; W − W] — exact high and low parts of a split that is
  the identity on extended reals — which is x·W whenever x and W are finite, and that is what the
  precondition provides.  The one rewrite between the printed program and its idealization is a
  round trip through a narrower float format, the identity at the ideal instance.
-/
import proofs.«136902_g2000104694688240_pallasbulk_140_2_alg».proof.Defs
import proofs.«136902_g2000104694688240_pallasbulk_140_2_alg».proof.Proof.Gen.Kernel
import proofs.«136902_g2000104694688240_pallasbulk_140_2_alg».proof.Proof.Gen.KernelIdeal
import proofs.«136902_g2000104694688240_pallasbulk_140_2_alg».proof.Proof.Gen.ReferenceIdeal
import proofs.«136902_g2000104694688240_pallasbulk_140_2_alg».proof.Proof.Gen.ReferenceIdeal.Frame
import proofs.«136902_g2000104694688240_pallasbulk_140_2_alg».proof.Proof.Gen.Pre_finite_inputs
import proofs.«136902_g2000104694688240_pallasbulk_140_2_alg».proof.Proof.FrameKernel
import proofs.«136902_g2000104694688240_pallasbulk_140_2_alg».proof.Proof.FrameKernelIdeal
import proofs.«136902_g2000104694688240_pallasbulk_140_2_alg».proof.Proof.ValueKernel
import proofs.«136902_g2000104694688240_pallasbulk_140_2_alg».proof.Proof.ValueReference
import proofs.«136902_g2000104694688240_pallasbulk_140_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Fr.frame m ρ
theorem frame_kernelIdeal : Cert.frame_KernelIdeal := fun m ρ _ => Cert.KernelIdeal.Fr.frame m ρ
theorem frame_referenceIdeal : Cert.frame_ReferenceIdeal := fun m ρ _ => Cert.ReferenceIdeal.Gen.frame m ρ

/-- Narrowing a float and widening it back is the identity on extended reals. -/
theorem preserves : Cert.preserves_Kernel_KernelIdeal :=
  IdealRules.truncf_extf.statement _ .f32 .bf16

/-- Under the precondition the arguments are finite, hence so are the packed activations and the
    block-diagonal weight; the optimized program then ends at `Spec.result` of the arguments, and the
    reference does whatever the arguments are. -/
theorem algebraic : Cert.algebraic_KernelIdeal_ReferenceIdeal := by
  intro m ρ m' ρ' hpre hagree
  have hfin := fun c => Cert.Finite.args_real _ _ _ (hpre c)
  refine ⟨_, Cert.KernelIdeal.KV.run m ρ (fun c => Cert.Finite.packRows_real _ (hfin c).1)
    (fun c => Cert.Finite.blockDiag_real _ (hfin c).2.1), ?_⟩
  refine (θ_run Cert.ReferenceIdeal.defs _ _).mono (fun _ h c => ⟨(h c).1.trans ?_, (h c).2⟩)
    (Cert.ReferenceIdeal.RV.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
